-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x512 .f32) (main_arg1 : FVec F S8192x8192 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x512 : Shape := ⟨2, ![8192, 512]⟩
abbrev S8192x8192 : Shape := ⟨2, ![8192, 8192]⟩
abbrev S256x8192 : Shape := ⟨2, ![256, 8192]⟩
abbrev S256x512 : Shape := ⟨2, ![256, 512]⟩
abbrev S256x1 : Shape := ⟨2, ![256, 1]⟩
abbrev S256x1024 : Shape := ⟨2, ![256, 1024]⟩
abbrev S256 : Shape := ⟨1, ![256]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x512, .bf16⟩
  | .hbm, ⟨3, _⟩ => ⟨S8192x512, .f32⟩
  | .local _ .vmem, ⟨0, _⟩ => ⟨S256x8192, .f32⟩
  | .local _ .vmem, ⟨1, _⟩ => ⟨S256x8192, .f32⟩
  | .local _ .vmem, ⟨2, _⟩ => ⟨S8192x512, .bf16⟩
  | .local _ .vmem, ⟨3, _⟩ => ⟨S256x512, .f32⟩
  | .local _ .vmem, ⟨4, _⟩ => ⟨S256x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S256x8192_S256x1024_0_0 : ∀ a, (![0, 0] : Fin 2 → Nat) a + S256x1024.size a ≤ S256x8192.size a
  h_S256x1024 : 0 < S256x1024.numel
  natLt_1_32 : 1 < 32
  reduces_S256x1024_S256 : S256x1024.Reduces [1] S256
  shapeCasts_S256_S256x1 : S256.ShapeCasts S256x1
  inb_S256x8192_S256x1024_0_1024 : ∀ a, (![0, 1024] : Fin 2 → Nat) a + S256x1024.size a ≤ S256x8192.size a
  inb_S256x8192_S256x1024_0_2048 : ∀ a, (![0, 2048] : Fin 2 → Nat) a + S256x1024.size a ≤ S256x8192.size a
  inb_S256x8192_S256x1024_0_3072 : ∀ a, (![0, 3072] : Fin 2 → Nat) a + S256x1024.size a ≤ S256x8192.size a
  inb_S256x8192_S256x1024_0_4096 : ∀ a, (![0, 4096] : Fin 2 → Nat) a + S256x1024.size a ≤ S256x8192.size a
  inb_S256x8192_S256x1024_0_5120 : ∀ a, (![0, 5120] : Fin 2 → Nat) a + S256x1024.size a ≤ S256x8192.size a
  inb_S256x8192_S256x1024_0_6144 : ∀ a, (![0, 6144] : Fin 2 → Nat) a + S256x1024.size a ≤ S256x8192.size a
  inb_S256x8192_S256x1024_0_7168 : ∀ a, (![0, 7168] : Fin 2 → Nat) a + S256x1024.size a ≤ S256x8192.size a
  broadcasts_S256x1_S256x1024 : S256x1.Broadcasts S256x1024
  inb_S8192x512_S1024x512_0_0 : ∀ a, (![0, 0] : Fin 2 → Nat) a + S1024x512.size a ≤ S8192x512.size a
  h_S1024x512 : 0 < S1024x512.numel
  shapeCasts_S1024x512_S1024x512 : S1024x512.ShapeCasts S1024x512
  inb_S8192x512_S1024x512_1024_0 : ∀ a, (![1024, 0] : Fin 2 → Nat) a + S1024x512.size a ≤ S8192x512.size a
  inb_S8192x512_S1024x512_2048_0 : ∀ a, (![2048, 0] : Fin 2 → Nat) a + S1024x512.size a ≤ S8192x512.size a
  inb_S8192x512_S1024x512_3072_0 : ∀ a, (![3072, 0] : Fin 2 → Nat) a + S1024x512.size a ≤ S8192x512.size a
  inb_S8192x512_S1024x512_4096_0 : ∀ a, (![4096, 0] : Fin 2 → Nat) a + S1024x512.size a ≤ S8192x512.size a
  inb_S8192x512_S1024x512_5120_0 : ∀ a, (![5120, 0] : Fin 2 → Nat) a + S1024x512.size a ≤ S8192x512.size a
  inb_S8192x512_S1024x512_6144_0 : ∀ a, (![6144, 0] : Fin 2 → Nat) a + S1024x512.size a ≤ S8192x512.size a
  inb_S8192x512_S1024x512_7168_0 : ∀ a, (![7168, 0] : Fin 2 → Nat) a + S1024x512.size a ≤ S8192x512.size a
  broadcasts_S256x1_S256x512 : S256x1.Broadcasts S256x512
  inb_S256x512_S256x512_0_0 : ∀ a, (![0, 0] : Fin 2 → Nat) a + S256x512.size a ≤ S256x512.size a
  h_S256x512 : 0 < S256x512.numel
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S8192x512.size a
  hwx0_2 : ∀ i : grid0.Coords, EltTy.bits .f32 = 32 ∨ (Rect.block (s := S8192x512) S256x512.size (cc0_transform_2 i) (hinb0_2 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S_, .f32⟩
  | .hbm, ⟨3, _⟩ => ⟨S8192x8192, .f32⟩
  | .hbm, ⟨4, _⟩ => ⟨S8192x8192, .i1⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x512, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x512, .f32⟩
  | .hbm, ⟨22, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  bcast_S8192x1_S8192x512_0_1 : S8192x1.BroadcastsInDim S8192x512 (![0, 1] : Fin 2 → Fin S8192x512.rank)
  dot_S8192x8192_S8192x512_S8192x512_1_0_0_1_n_n_wf : DotDims.WF S8192x8192 S8192x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.LibSumScale.lean ====
/-
  A finite sum on the extended reals times a nonnegative finite factor.

  Multiplication on `EReal` does not distribute over addition in general (`⊤ + ⊥ = ⊥` breaks it for a negative
  factor), but it does for a factor `x` with `0 ≤ x` and `x ≠ ⊤`: `(y + z) * x = y * x + z * x` for ALL `y z`, the
  infinities included. Hence a scale of that kind moves in and out of a finite sum with no finiteness of the terms,
  and, multiplication being associative and commutative, in and out of a sum of products:
  `∑ c, a c * (b c * x) = (∑ c, a c * b c) * x`.
-/
import Mathlib.Data.EReal.Inv
import Mathlib.Algebra.BigOperators.Group.Finset.Basic

open scoped BigOperators

namespace LibSumScale

/-- A finite sum times a nonnegative factor other than `⊤` is the sum of the terms times that factor. -/
theorem sum_mul {ι : Type*} (s : Finset ι) (f : ι → EReal) {x : EReal} (hx : 0 ≤ x) (hx' : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top hx hx', ih]

/-- A contraction whose right factor carries a nonnegative finite scale is the unscaled contraction times the
    scale. -/
theorem sum_mul_scaled {ι : Type*} (s : Finset ι) (a b : ι → EReal) {x : EReal} (hx : 0 ≤ x) (hx' : x ≠ ⊤) :
    ∑ i ∈ s, a i * (b i * x) = (∑ i ∈ s, a i * b i) * x := by
  rw [sum_mul s _ hx hx']
  exact Finset.sum_congr rfl fun i _ => (mul_assoc (a i) (b i) x).symm

end LibSumScale
-- ==== Proof.HyperedgeSpec.lean ====
/-
  Hyperedge message passing, row by row, on the extended reals.

  For an incidence matrix A (r rows, n columns) and node features X (n rows, d columns), row i of the result is

      out (i, ·) = (∑ j, aug (i, j) · X (j, ·)) / (∑ j, aug (i, j)),
      aug (i, j) = A (i, j) + pos (A (i, j)) / norm i,
      norm i     = max (√(count i)) ε,      count i = ∑ j, pos (A (i, j)),

  where pos a is 1 for 0 < a and 0 otherwise (the indicator of the positive entries: the hyperedge's members), and
  ε is a fixed positive real. Row i of the result depends on row i of A only.

  The same row can be computed with the reciprocal of the norm taken once: with inv i = 1 / norm i,

      aug (i, j)    = A (i, j) + pos (A (i, j)) · inv i,
      ∑ j, aug (i, j) = (∑ j, A (i, j)) + count i · inv i.

  Both hold for every extended real A (i, j): norm i ≥ ε > 0, so dividing by it is multiplying by its inverse, and
  that inverse is a nonnegative real, which moves across a finite sum whatever the terms are.
-/
import Idealize.ShloMosaic.PureOps.Ideal.Laws
import Idealize.ShloMosaic.Lib.ValueIdx
import proofs.«155519_j59227599012106_2_alg».proof.Proof.LibSumScale

noncomputable section

open scoped BigOperators

namespace Cert.Hyperedge

open Idealize.ShloMosaic Idealize.ShloMosaic.ValueIdx

/-- A matrix of extended reals with `r` rows and `c` columns. -/
abbrev Mat (r c : Nat) := (⟨2, ![r, c]⟩ : Shape).Idx → EReal

/-- The indicator of positivity: 1 where `0 < a`, else 0. -/
def pos (a : EReal) : EReal := if 0 < a then 1 else 0

/-- The clamp under the row norm: the single-precision number nearest 1e-12, a positive real. -/
def eps : EReal := Ideal.ofBits .f32 0x2B8CBCCC#32

variable {R R' N D : Nat}

/-- How many entries of row `i` are positive. -/
def count (A : Mat R N) (i : Fin R) : EReal := ∑ j : Fin N, pos (A (ix2 i j))

/-- The Euclidean norm of row `i`'s indicator vector, clamped below by ε. -/
def norm (A : Mat R N) (i : Fin R) : EReal := max (Ideal.sqrt (count A i)) eps

/-- The incidence entry plus the normalized membership indicator. -/
def aug (A : Mat R N) (i : Fin R) (j : Fin N) : EReal := A (ix2 i j) + Ideal.div (pos (A (ix2 i j))) (norm A i)

/-- Row `i`'s degree: the sum of its augmented entries. -/
def degree (A : Mat R N) (i : Fin R) : EReal := ∑ j : Fin N, aug A i j

/-- Row `i`'s aggregated feature `d`. -/
def feature (A : Mat R N) (X : Mat N D) (i : Fin R) (d : Fin D) : EReal := ∑ j : Fin N, aug A i j * X (ix2 j d)

/-- The result at row `i`, column `d`. -/
def outAt (A : Mat R N) (X : Mat N D) (i : Fin R) (d : Fin D) : EReal := Ideal.div (feature A X i d) (degree A i)

/-- The result as a matrix. -/
def out (A : Mat R N) (X : Mat N D) : Mat R D := fun o => outAt A X (o 0) (o 1)

theorem out_ix2 (A : Mat R N) (X : Mat N D) (i : Fin R) (d : Fin D) : out A X (ix2 i d) = outAt A X i d := rfl

/-! ## The same row with the reciprocal of the norm taken once -/

/-- The reciprocal of the clamped norm. -/
def inv (A : Mat R N) (i : Fin R) : EReal := Ideal.div 1 (norm A i)

/-- The augmented entry through the reciprocal. -/
def augK (A : Mat R N) (i : Fin R) (j : Fin N) : EReal := A (ix2 i j) + pos (A (ix2 i j)) * inv A i

/-- The degree as the row sum plus the count times the reciprocal. -/
def degreeK (A : Mat R N) (i : Fin R) : EReal := (∑ j : Fin N, A (ix2 i j)) + count A i * inv A i

/-- The result through the reciprocal. -/
def outAtK (A : Mat R N) (X : Mat N D) (i : Fin R) (d : Fin D) : EReal :=
  Ideal.div (∑ j : Fin N, augK A i j * X (ix2 j d)) (degreeK A i)

/-- ε is positive. -/
theorem eps_pos : 0 < eps := by
  unfold eps
  simp [Ideal.ofBits, Ideal.ieee]
  positivity

theorem norm_pos (A : Mat R N) (i : Fin R) : 0 < norm A i := lt_of_lt_of_le eps_pos (le_max_right _ _)

/-- Off zero the quotient is the product with the inverse. -/
theorem div_of_pos (x : EReal) {s : EReal} (hs : 0 < s) : Ideal.div x s = x * s⁻¹ := by
  unfold Ideal.div
  rw [if_neg hs.ne']

theorem inv_eq (A : Mat R N) (i : Fin R) : inv A i = (norm A i)⁻¹ := by
  unfold inv
  rw [div_of_pos 1 (norm_pos A i), one_mul]

theorem inv_nonneg (A : Mat R N) (i : Fin R) : 0 ≤ inv A i := by
  rw [inv_eq]
  exact EReal.inv_nonneg_of_nonneg (norm_pos A i).le

theorem inv_ne_top (A : Mat R N) (i : Fin R) : inv A i ≠ ⊤ := by
  rw [inv_eq]
  exact (EReal.inv_lt_top _).ne

theorem augK_eq (A : Mat R N) (i : Fin R) (j : Fin N) : augK A i j = aug A i j := by
  unfold augK aug
  rw [inv_eq, div_of_pos _ (norm_pos A i)]

theorem degreeK_eq (A : Mat R N) (i : Fin R) : degreeK A i = degree A i := by
  calc degreeK A i = (∑ j : Fin N, A (ix2 i j)) + ∑ j : Fin N, pos (A (ix2 i j)) * inv A i := by
        unfold degreeK count
        rw [LibSumScale.sum_mul _ _ (inv_nonneg A i) (inv_ne_top A i)]
    _ = ∑ j : Fin N, augK A i j := by
        unfold augK
        rw [Finset.sum_add_distrib]
    _ = degree A i := by
        unfold degree
        exact Finset.sum_congr rfl fun j _ => augK_eq A i j

theorem outAtK_eq (A : Mat R N) (X : Mat N D) (i : Fin R) (d : Fin D) : outAtK A X i d = outAt A X i d := by
  unfold outAtK outAt feature
  rw [degreeK_eq]
  exact congrArg (fun s => Ideal.div s (degree A i)) (Finset.sum_congr rfl fun j _ => by rw [augK_eq])

/-! ## A row of the result depends on that row of the incidence matrix only -/

theorem outAt_congr_row (A : Mat R N) (A' : Mat R' N) (X : Mat N D) (i : Fin R) (i' : Fin R')
    (h : ∀ j : Fin N, A (ix2 i j) = A' (ix2 i' j)) (d : Fin D) : outAt A X i d = outAt A' X i' d := by
  simp only [outAt, feature, degree, aug, norm, count, h]

end Cert.Hyperedge

end
-- ==== Proof.LibColumn.lean ====
/-
  Column layouts read at an index, over any extents and any element type.

  A row statistic (a maximum, a sum) of an a × b matrix is a vector of a entries; to combine it with the
  matrix again it is first re-laid as an a × 1 column and then repeated along the second axis. Read at (i, j)
  the result is the vector's entry i, whatever j: the two lemmas below say so, one per step.
-/
import Idealize.ShloMosaic.Lib.ValueIdx
import Idealize.ShloMosaic.Lib.Pipeline.Value

namespace Cert.Lib.Column

open Idealize.ShloMosaic Idealize.ShloMosaic.ValueIdx

variable {α : Type}

/-- A vector of `a` entries cast to an `a × 1` column reads, at `(i, u)`, the vector's entry `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column's entry `i`: the unit axis is read at `0`,
    the other axis at the result's own coordinate. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a vector re-laid as a column and repeated along a second axis reads, at `(i, j)`, the
    vector's entry `i`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

end Cert.Lib.Column
-- ==== Proof.LibMatmulNN.lean ====
/-
  A plain matrix product read at an index, at the ideal values.

  For an M×K matrix A and a K×N matrix B, the product that contracts axis 1 of A with axis 0 of B (dimension numbers
  [1], [0], [0], [1], no batch axis: A · B) has at (a, b) the entry

      acc (a, b) + ∑ c < K, A (a, c) · B (c, b)

  on the extended reals, and just the sum when the accumulator is the zero splat. The index of the contraction is
  the one coordinate c; the operand indices at output (a, b) and contraction position c are (a, c) and (c, b).
-/
import Idealize.ShloMosaic.Lib.ValueIdx
import Idealize.ShloMosaic.PureOps.Ideal.Laws

noncomputable section

open scoped BigOperators

namespace Idealize.ShloMosaic.MatmulNN

open Idealize.ShloMosaic Idealize.ShloMosaic.ValueIdx

variable {M K N : Nat}

/-- The left operand's index at output (a, b) and contraction position c is (a, c). -/
theorem lhsIdx_plain (a : Fin M) (b : Fin N) (c : Fin K) :
    (DotDims.plain M K N).lhsIdx (ix2 a b) ((contrEquiv1 (DotDims.plain M K N) K rfl rfl).symm c) = ix2 a c := by
  have c2 := contrEquiv1_symm_val (DotDims.plain M K N) K rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output (a, b) and contraction position c is (c, b). -/
theorem rhsIdx_plain (a : Fin M) (b : Fin N) (c : Fin K) :
    (DotDims.plain M K N).rhsIdx (ix2 a b) ((contrEquiv1 (DotDims.plain M K N) K rfl rfl).symm c) = ix2 c b := by
  have c2 := contrEquiv1_symm_val (DotDims.plain M K N) K rfl rfl c
  funext ax; apply Fin.ext
  match ax with
  | ⟨0, _⟩ => simp [DotDims.rhsIdx, DotDims.plain]; exact c2
  | ⟨1, _⟩ => simp [DotDims.rhsIdx, DotDims.plain]; rfl

/-- A · B accumulated onto `acc`, at (a, b): the accumulator's entry plus the sum over the contracted coordinate. -/
theorem matmul_apply {φ₁ φ₂ : FTy} (prec : Option ContractPrecision)
    (A : FVec Ideal ⟨2, ![M, K]⟩ φ₁) (B : FVec Ideal ⟨2, ![K, N]⟩ φ₂) (acc : FVec Ideal ⟨2, ![M, N]⟩ .f32) (a : Fin M) (b : Fin N) :
    FloatOps.matmul (DotDims.plain M K N) prec A B acc (ix2 a b)
      = acc (ix2 a b) + ∑ c : Fin K, A (ix2 a c) * B (ix2 c b) := by
  rw [Ideal.matmul_apply, ← Equiv.sum_comp (contrEquiv1 (DotDims.plain M K N) K rfl rfl).symm]
  refine congrArg (acc (ix2 a b) + ·) (Finset.sum_congr rfl fun c _ => ?_)
  rw [lhsIdx_plain, rhsIdx_plain]

/-- A · B into the zero splat, at (a, b): the sum over the contracted coordinate. -/
theorem matmul_zero_apply {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  rw [lhsIdx_plain, rhsIdx_plain]

end Idealize.ShloMosaic.MatmulNN

end
-- ==== Proof.PanelOps.lean ====
/-
  The four operations the body repeats on every chunk of a row panel, read at an index on the extended reals.

  A panel is 256 rows of the incidence matrix; the body walks it in eight chunks of 1024 columns. On a chunk `v` it
  forms
    * the membership indicator, 1 where an entry is positive and 0 elsewhere (a comparison with zero, widened to a
      32-bit integer and converted to a float: the integer is 0 or 1, so the float is);
    * a sum along each row, re-laid as a 256 × 1 column;
    * the fused operand `v + indicator · inv`, with `inv` a 256 × 1 column repeated along the row (the change of float
      format that follows is the identity on the extended reals);
    * the product of a 256 × 1024 operand with a 1024 × 512 operand into the zero accumulator: at (p, d) the sum over
      the 1024 contracted positions.
-/
import proofs.«155519_j59227599012106_2_alg».proof.Proof.Gen.KernelIdeal.Skeleton
import proofs.«155519_j59227599012106_2_alg».proof.Proof.HyperedgeSpec
import proofs.«155519_j59227599012106_2_alg».proof.Proof.LibColumn
import proofs.«155519_j59227599012106_2_alg».proof.Proof.LibMatmulNN
import Idealize.ShloMosaic.Lib.Pipeline.Value

noncomputable section

open scoped BigOperators

namespace Cert.KernelIdeal.Panel

open Cert.KernelIdeal Cert.KernelIdeal.Facts₀ Idealize.ShloMosaic Idealize.ShloMosaic.ValueIdx Cert.Hyperedge

/-- The membership indicator of a chunk, as the body forms it. -/
abbrev maskOf (v : FVec Ideal S256x1024 .f32) : FVec Ideal S256x1024 .f32 :=
  sitofp .f32 (extui 32 (cmpf .ogt v (broadcast S256x1024 (Scalar.ofBits (F := Ideal) .f32 0x00000000#32))) natLt_1_32)

/-- The sum along each row of a chunk, as a 256 × 1 column. -/
abbrev colSum (v : FVec Ideal S256x1024 .f32) : FVec Ideal S256x1 .f32 :=
  shapeCast S256x1 (multiReduction (F := Ideal) .add [1] S256 v 0x00000000#32 reduces_S256x1024_S256 (.inl rfl) rfl)
    shapeCasts_S256_S256x1

/-- The fused operand of a chunk: the entry plus its indicator times the row's column value. -/
abbrev fusedOf (inv : FVec Ideal S256x1 .f32) (v : FVec Ideal S256x1024 .f32) : FVec Ideal S256x1024 .bf16 :=
  truncf .bf16 (addf v (mulf (maskOf v) (broadcastTo S256x1024 inv broadcasts_S256x1_S256x1024))) bitsLt_bf16_f32

/-- The indicator at an index is the indicator of positivity of the entry. -/
theorem maskOf_apply (v : FVec Ideal S256x1024 .f32) (j : S256x1024.Idx) : maskOf v j = pos (v j) := by
  show ((((Ideal.cmp .ogt (v j) (Ideal.ofBits .f32 0x00000000#32)).setWidth 32).toInt : ℝ) : EReal) = pos (v j)
  rw [Ideal.ofBits_zero_f32]
  unfold pos Ideal.cmp
  by_cases h : 0 < v j
  · simp [h]
  · simp [h]

/-- A row sum re-laid as a column, at row `p`: the sum over the row's 1024 entries. -/
theorem colSum_apply (v : FVec Ideal S256x1024 .f32) (p : Fin 256) (u : Fin 1) :
    colSum v (ix2 p u) = ∑ q : Fin 1024, v (ix2 p q) := by
  refine (Cert.Lib.Column.shapeCast_a_a1_apply _ shapeCasts_S256_S256x1 p u).trans ?_
  refine (Ideal.multiReduction_add_single v 0x00000000#32 reduces_S256x1024_S256 (.inl rfl) rfl (ix1 p)).trans ?_
  exact Finset.sum_congr rfl fun q _ =>
    congrArg v (funext fun a => Fin.ext (by match a with | ⟨0, _⟩ => rfl | ⟨1, _⟩ => rfl))

/-- The row sums of the indicator count the positive entries of each row. -/
theorem colSum_maskOf_apply (v : FVec Ideal S256x1024 .f32) (p : Fin 256) (u : Fin 1) :
    colSum (maskOf v) (ix2 p u) = ∑ q : Fin 1024, pos (v (ix2 p q)) := by
  rw [colSum_apply]
  exact Finset.sum_congr rfl fun q _ => maskOf_apply v (ix2 p q)

/-- The fused operand at (p, q). -/
theorem fusedOf_apply (inv : FVec Ideal S256x1 .f32) (v : FVec Ideal S256x1024 .f32) (p : Fin 256) (q : Fin 1024) :
    fusedOf inv v (ix2 p q) = v (ix2 p q) + pos (v (ix2 p q)) * inv (ix2 p (0 : Fin 1)) := by
  show v (ix2 p q) + maskOf v (ix2 p q) * broadcastTo S256x1024 inv broadcasts_S256x1_S256x1024 (ix2 p q) = _
  rw [maskOf_apply, Cert.Lib.Column.broadcastTo_a1_ab_apply]

/-- A 256 × 1 column repeated along 512 columns, at (p, d). -/
theorem column512_apply (c : FVec Ideal S256x1 .f32) (p : Fin 256) (d : Fin 512) :
    broadcastTo S256x512 c broadcasts_S256x1_S256x512 (ix2 p d) = c (ix2 p (0 : Fin 1)) :=
  Cert.Lib.Column.broadcastTo_a1_ab_apply c broadcasts_S256x1_S256x512 p d

/-- The product of a chunk operand with its 1024 × 512 block of features onto an accumulator, at (p, d). -/
theorem matmul_apply (a : FVec Ideal S256x1024 .bf16) (b : FVec Ideal S1024x512 .bf16) (acc : FVec Ideal S256x512 .f32)
    (p : Fin 256) (d : Fin 512) :
    matmul (F := Ideal) dot_S256x1024_S1024x512_S256x512_1_0_0_1_n_n none a
        (shapeCast S1024x512 b shapeCasts_S1024x512_S1024x512) acc (ix2 p d)
      = acc (ix2 p d) + ∑ q : Fin 1024, a (ix2 p q) * b (ix2 q d) := by
  rw [shapeCast_self]
  exact Idealize.ShloMosaic.MatmulNN.matmul_apply (M := 256) (K := 1024) (N := 512) none a b acc p d

/-- The zero splat at an index. -/
theorem zero512_apply (o : S256x512.Idx) : constant (F := Ideal) S256x512 .f32 0x00000000#32 o = 0 :=
  Ideal.ofBits_zero_f32

end Cert.KernelIdeal.Panel

end
-- ==== Proof.LibTileSum.lean ====
/-
  Sums regrouped by tiles of rows, in any commutative additive monoid (so also on the extended reals, where no
  finiteness is asked: only commutativity and associativity of the sum are used).

  * `sum_tiles`: the sum over `A * B` consecutive rows is the sum over `A` tiles of the sums over each tile's `B`
    rows; row `B * t + r` of the whole is row `r` of tile `t` (`tileRow`).
  * `sum_idx1`, `sum_unitCol`: a sum over the multi-indices of a vector `[n]`, or of a one-column matrix `[n, 1]`,
    is the sum over the row coordinate.
  * `sum_shapeCast`: a shape cast keeps every element at its row-major position, so the sum over a shape cast of a
    vector is the sum over the vector.
-/
import Idealize.ShloMosaic.Lib.ValueIdx

noncomputable section

open scoped BigOperators

namespace Cert.Lib.TileSum

open Idealize.ShloMosaic Idealize.ShloMosaic.ValueIdx

variable {M : Type} [AddCommMonoid M]

/-- Row `r` of tile `t`, among `A` tiles of `B` rows each, is a row of the whole. -/
theorem tile_row_lt {A B : ℕ} (t : Fin A) (r : Fin B) : B * t.val + r.val < A * B := by
  have h1 : B * t.val + r.val < B * t.val + B := Nat.add_lt_add_left r.isLt _
  have h2 : B * t.val + B ≤ A * B := by
    have h3 : B * (t.val + 1) ≤ B * A := Nat.mul_le_mul_left B t.isLt
    rw [Nat.mul_add, Nat.mul_one, Nat.mul_comm B A] at h3
    exact h3
  exact lt_of_lt_of_le h1 h2

/-- Row `r` of tile `t` as a row of the whole: number `B * t + r`. -/
def tileRow {A B N : ℕ} (h : A * B = N) (t : Fin A) (r : Fin B) : Fin N :=
  ⟨B * t.val + r.val, h ▸ tile_row_lt t r⟩

@[simp] theorem tileRow_val {A B N : ℕ} (h : A * B = N) (t : Fin A) (r : Fin B) :
    (tileRow h t r).val = B * t.val + r.val := rfl

/-- A sum over all rows is the sum over the tiles of the sums over each tile's rows. -/
theorem sum_tiles {A B N : ℕ} (h : A * B = N) (f : Fin N → M) :
    ∑ t : Fin A, ∑ r : Fin B, f (tileRow h t r) = ∑ j : Fin N, f j := by
  subst h
  calc ∑ t : Fin A, ∑ r : Fin B, f (tileRow rfl t r)
      = ∑ x : Fin A × Fin B, f (tileRow rfl x.1 x.2) := (Fintype.sum_prod_type' fun t r => f (tileRow rfl t r)).symm
    _ = ∑ x : Fin A × Fin B, f (finProdFinEquiv x) :=
        Finset.sum_congr rfl fun x _ => congrArg f (Fin.ext (Nat.add_comm _ _))
    _ = ∑ j : Fin (A * B), f j := Equiv.sum_comp finProdFinEquiv f

/-- The multi-indices of a vector `[n]` are its coordinates … -/
def idxEquiv1 {n : ℕ} : (⟨1, ![n]⟩ : Shape).Idx ≃ Fin n where
  toFun i := i 0
  invFun a := ix1 a
  left_inv i := (eq_ix1 i).symm
  right_inv _ := rfl

/-- … so a sum over them is the sum over the coordinate. -/
theorem sum_idx1 {n : ℕ} (f : (⟨1, ![n]⟩ : Shape).Idx → M) : ∑ i, f i = ∑ a : Fin n, f (ix1 a) :=
  (Equiv.sum_comp (idxEquiv1 (n := n)).symm f).symm

/-- A sum over the multi-indices of a one-column matrix `[n, 1]` is the sum over the rows. -/
theorem sum_unitCol {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- A shape cast relabels positions, one to one: the sum over a shape cast of `v` is the sum over `v`. -/
theorem sum_shapeCast {s t : Shape} (v : s.Idx → M) (h : s.ShapeCasts t) :
    ∑ j : t.Idx, shapeCast t v h j = ∑ i : s.Idx, v i :=
  Equiv.sum_comp (Shape.reshapeEquiv h) v

end Cert.Lib.TileSum

end
-- ==== Proof.EightChunks.lean ====
/-
  A row of 8192 columns walked in eight chunks of 1024.

  Column `q` of chunk `k` is column `1024 · k + q` of the row, and a sum over the row is the sum of the eight chunk
  sums taken in order — in any commutative additive monoid, so on the extended reals with no finiteness of the terms.
-/
import proofs.«155519_j59227599012106_2_alg».proof.Proof.LibTileSum

noncomputable section

open scoped BigOperators

namespace Cert.Hyperedge.Chunks

open Cert.Lib.TileSum

theorem eight_chunks : 8 * 1024 = 8192 := by norm_num

/-- Column `q` of chunk `k` as a column of the whole row. -/
abbrev col (k : Fin 8) (q : Fin 1024) : Fin 8192 := tileRow eight_chunks k q

theorem col_val (k : Fin 8) (q : Fin 1024) : (col k q).val = 1024 * k.val + q.val := rfl

/-- The eight chunk sums, added up in order, are the sum over the row. -/
theorem sum_eight_chunks {M : Type} [AddCommMonoid M] (f : Fin 8192 → M) :
    (∑ q : Fin 1024, f (col 0 q)) + (∑ q : Fin 1024, f (col 1 q)) + (∑ q : Fin 1024, f (col 2 q))
      + (∑ q : Fin 1024, f (col 3 q)) + (∑ q : Fin 1024, f (col 4 q)) + (∑ q : Fin 1024, f (col 5 q))
      + (∑ q : Fin 1024, f (col 6 q)) + (∑ q : Fin 1024, f (col 7 q)) = ∑ j : Fin 8192, f j := by
  rw [← sum_tiles eight_chunks f, Fin.sum_univ_eight]

end Cert.Hyperedge.Chunks

end
-- ==== Proof.PanelPayload.lean ====
/-
  The body's result on one row panel: the row-wise hyperedge function of the panel.

  The body walks the 256 × 8192 panel twice in eight chunks of 1024 columns. The first walk adds up, chunk by chunk
  from zero, each row's count of positive entries and each row's sum; from the count it takes the reciprocal
  inv = 1 / max (√count) ε and the degree (row sum) + count · inv. The second walk adds up, chunk by chunk from zero,
  the products of the fused chunk (entry + indicator · inv) with the matching 1024 rows of the features, and the
  result is that sum over the degree. Eight chunk sums taken in order are the sum over the whole row, so each of the
  three accumulations is the corresponding sum over the 8192 columns, and the result at (p, d) is the row function
  in its reciprocal form — hence the row function itself.
-/
import proofs.«155519_j59227599012106_2_alg».proof.Proof.Gen.KernelIdeal.Frame
import proofs.«155519_j59227599012106_2_alg».proof.Proof.PanelOps
import proofs.«155519_j59227599012106_2_alg».proof.Proof.EightChunks

noncomputable section

open scoped BigOperators

namespace Cert.KernelIdeal.Panel

open Cert.KernelIdeal Cert.KernelIdeal.Facts₀ Idealize.ShloMosaic Idealize.ShloMosaic.ValueIdx Cert.Hyperedge
open Cert.Hyperedge.Chunks (col sum_eight_chunks)

/-! ## A chunk's three row quantities -/

/-- How many entries of row `p` of a chunk are positive. -/
def cnt (v : FVec Ideal S256x1024 .f32) (p : Fin 256) : EReal := ∑ q : Fin 1024, pos (v (ix2 p q))

/-- The sum of row `p` of a chunk. -/
def rsum (v : FVec Ideal S256x1024 .f32) (p : Fin 256) : EReal := ∑ q : Fin 1024, v (ix2 p q)

/-- Row `p` of the fused chunk (entry + indicator · the row's column value) against column `d` of a 1024-row block of
    features. -/
def mm (inv : FVec Ideal S256x1 .f32) (a : FVec Ideal S256x1024 .f32) (b : FVec Ideal S1024x512 .bf16) (p : Fin 256)
    (d : Fin 512) : EReal :=
  ∑ q : Fin 1024, (a (ix2 p q) + pos (a (ix2 p q)) * inv (ix2 p (0 : Fin 1))) * b (ix2 q d)

/-- The single-precision pattern of one denotes 1. -/
theorem one_f32 : Ideal.ofBits .f32 0x3F800000#32 = 1 := by
  simp [Ideal.ofBits, Ideal.ieee, -EReal.coe_mul]; norm_num

/-- The product of a fused chunk with its block of features into the zero accumulator. -/
theorem matmul_fused_zero_apply (inv : FVec Ideal S256x1 .f32) (a : FVec Ideal S256x1024 .f32) (b : FVec Ideal S1024x512 .bf16)
    (p : Fin 256) (d : Fin 512) :
    matmul (F := Ideal) dot_S256x1024_S1024x512_S256x512_1_0_0_1_n_n none (fusedOf inv a) (shapeCast S1024x512 b shapeCasts_S1024x512_S1024x512) (constant (F := Ideal) S256x512 .f32 0x00000000#32) (ix2 p d) = mm inv a b p d := by
  rw [matmul_apply, zero512_apply, zero_add]
  exact Finset.sum_congr rfl fun q _ => by rw [fusedOf_apply]

/-! ## The body's named values, read at an index -/

theorem pay1_apply (a0 a1 a2 : FVec Ideal S256x1024 .f32) (p : Fin 256) (u : Fin 1) :
    Gen.k0_pay1 (F := Ideal) a0 a1 a2 (ix2 p u) = cnt a0 p + cnt a1 p + cnt a2 p := by
  show Ideal.ofBits .f32 0x00000000#32 + colSum (maskOf a0) (ix2 p u) + colSum (maskOf a1) (ix2 p u)
    + colSum (maskOf a2) (ix2 p u) = _
  rw [colSum_maskOf_apply, colSum_maskOf_apply, colSum_maskOf_apply, Ideal.ofBits_zero_f32, zero_add]
  rfl

theorem pay2_apply (a0 a1 a2 : FVec Ideal S256x1024 .f32) (p : Fin 256) (u : Fin 1) :
    Gen.k0_pay2 (F := Ideal) a0 a1 a2 (ix2 p u) = rsum a0 p + rsum a1 p + rsum a2 p := by
  show Ideal.ofBits .f32 0x00000000#32 + colSum a0 (ix2 p u) + colSum a1 (ix2 p u) + colSum a2 (ix2 p u) = _
  rw [colSum_apply, colSum_apply, colSum_apply, Ideal.ofBits_zero_f32, zero_add]
  rfl

theorem pay4_apply (v31 : FVec Ideal S256x1 .f32) (a3 a4 a5 a6 : FVec Ideal S256x1024 .f32) (p : Fin 256) (u : Fin 1) :
    Gen.k0_pay4 (F := Ideal) v31 (Gen.k0_pay3 (F := Ideal) a3) a4 a5 a6 (ix2 p u) = v31 (ix2 p u) + cnt a3 p + cnt a4 p + cnt a5 p + cnt a6 p := by
  show v31 (ix2 p u) + colSum (maskOf a3) (ix2 p u) + colSum (maskOf a4) (ix2 p u) + colSum (maskOf a5) (ix2 p u)
    + colSum (maskOf a6) (ix2 p u) = _
  rw [colSum_maskOf_apply, colSum_maskOf_apply, colSum_maskOf_apply, colSum_maskOf_apply]
  rfl

theorem pay5_apply (v34 : FVec Ideal S256x1 .f32) (a3 a4 a5 a6 : FVec Ideal S256x1024 .f32) (p : Fin 256) (u : Fin 1) :
    Gen.k0_pay5 (F := Ideal) v34 a3 a4 a5 a6 (ix2 p u) = v34 (ix2 p u) + rsum a3 p + rsum a4 p + rsum a5 p + rsum a6 p := by
  show v34 (ix2 p u) + colSum a3 (ix2 p u) + colSum a4 (ix2 p u) + colSum a5 (ix2 p u) + colSum a6 (ix2 p u) = _
  rw [colSum_apply, colSum_apply, colSum_apply, colSum_apply]
  rfl

theorem pay6_apply (v75 : FVec Ideal S256x1 .f32) (a7 : FVec Ideal S256x1024 .f32) (p : Fin 256) (u : Fin 1) :
    Gen.k0_pay6 (F := Ideal) v75 a7 (ix2 p u) = v75 (ix2 p u) + cnt a7 p := by
  show v75 (ix2 p u) + colSum (maskOf a7) (ix2 p u) = _
  rw [colSum_maskOf_apply]
  rfl

theorem pay7_apply (v75 : FVec Ideal S256x1 .f32) (a7 : FVec Ideal S256x1024 .f32) (p : Fin 256) (u : Fin 1) :
    Gen.k0_pay7 (F := Ideal) v75 a7 (ix2 p u) = Ideal.div 1 (max (Ideal.sqrt (Gen.k0_pay6 (F := Ideal) v75 a7 (ix2 p u))) eps) := by
  show Ideal.div (Ideal.ofBits .f32 0x3F800000#32)
    (max (Ideal.sqrt (Gen.k0_pay6 (F := Ideal) v75 a7 (ix2 p u))) (Ideal.ofBits .f32 0x2B8CBCCC#32)) = _
  rw [one_f32]
  rfl

theorem pay8_apply (v75 v78 : FVec Ideal S256x1 .f32) (a7 : FVec Ideal S256x1024 .f32) (p : Fin 256) (u : Fin 1) :
    Gen.k0_pay8 (F := Ideal) v75 v78 a7 (ix2 p u)
      = v78 (ix2 p u) + rsum a7 p + Gen.k0_pay6 (F := Ideal) v75 a7 (ix2 p u) * Gen.k0_pay7 (F := Ideal) v75 a7 (ix2 p u) := by
  show v78 (ix2 p u) + colSum a7 (ix2 p u) + Gen.k0_pay6 (F := Ideal) v75 a7 (ix2 p u) * Gen.k0_pay7 (F := Ideal) v75 a7 (ix2 p u) = _
  rw [colSum_apply]
  rfl

theorem pay9_apply (v75 : FVec Ideal S256x1 .f32) (a7 a0 : FVec Ideal S256x1024 .f32) (b0 : FVec Ideal S1024x512 .bf16)
    (p : Fin 256) (d : Fin 512) :
    Gen.k0_pay9 (F := Ideal) v75 a7 a0 b0 (ix2 p d) = mm (Gen.k0_pay7 (F := Ideal) v75 a7) a0 b0 p d := by
  show Ideal.ofBits .f32 0x00000000#32 + matmul (F := Ideal) dot_S256x1024_S1024x512_S256x512_1_0_0_1_n_n none (fusedOf (Gen.k0_pay7 (F := Ideal) v75 a7) a0) (shapeCast S1024x512 b0 shapeCasts_S1024x512_S1024x512) (constant (F := Ideal) S256x512 .f32 0x00000000#32) (ix2 p d) = _
  rw [matmul_fused_zero_apply, Ideal.ofBits_zero_f32, zero_add]

theorem pay12_apply (v75 : FVec Ideal S256x1 .f32) (a7 : FVec Ideal S256x1024 .f32) (v110 : FVec Ideal S256x512 .f32)
    (a1 a2 a3 a4 : FVec Ideal S256x1024 .f32) (b1 b2 b3 b4 : FVec Ideal S1024x512 .bf16) (p : Fin 256) (d : Fin 512) :
    Gen.k0_pay12 (F := Ideal) (Gen.k0_pay7 (F := Ideal) v75 a7) v110 (Gen.k0_pay10 (F := Ideal) v75 a7 a1) (Gen.k0_pay11 (F := Ideal) b1) (constant (F := Ideal) S256x512 .f32 0x00000000#32)
        a2 b2 a3 b3 a4 b4 (ix2 p d)
      = v110 (ix2 p d) + mm (Gen.k0_pay7 (F := Ideal) v75 a7) a1 b1 p d + mm (Gen.k0_pay7 (F := Ideal) v75 a7) a2 b2 p d
        + mm (Gen.k0_pay7 (F := Ideal) v75 a7) a3 b3 p d + mm (Gen.k0_pay7 (F := Ideal) v75 a7) a4 b4 p d := by
  show v110 (ix2 p d) + matmul (F := Ideal) dot_S256x1024_S1024x512_S256x512_1_0_0_1_n_n none (fusedOf (Gen.k0_pay7 (F := Ideal) v75 a7) a1) (shapeCast S1024x512 b1 shapeCasts_S1024x512_S1024x512) (constant (F := Ideal) S256x512 .f32 0x00000000#32) (ix2 p d)
    + matmul (F := Ideal) dot_S256x1024_S1024x512_S256x512_1_0_0_1_n_n none (fusedOf (Gen.k0_pay7 (F := Ideal) v75 a7) a2) (shapeCast S1024x512 b2 shapeCasts_S1024x512_S1024x512) (constant (F := Ideal) S256x512 .f32 0x00000000#32) (ix2 p d)
    + matmul (F := Ideal) dot_S256x1024_S1024x512_S256x512_1_0_0_1_n_n none (fusedOf (Gen.k0_pay7 (F := Ideal) v75 a7) a3) (shapeCast S1024x512 b3 shapeCasts_S1024x512_S1024x512) (constant (F := Ideal) S256x512 .f32 0x00000000#32) (ix2 p d)
    + matmul (F := Ideal) dot_S256x1024_S1024x512_S256x512_1_0_0_1_n_n none (fusedOf (Gen.k0_pay7 (F := Ideal) v75 a7) a4) (shapeCast S1024x512 b4 shapeCasts_S1024x512_S1024x512) (constant (F := Ideal) S256x512 .f32 0x00000000#32) (ix2 p d) = _
  rw [matmul_fused_zero_apply, matmul_fused_zero_apply, matmul_fused_zero_apply, matmul_fused_zero_apply]

theorem pay13_apply (inv deg : FVec Ideal S256x1 .f32) (v162 : FVec Ideal S256x512 .f32)
    (a5 a6 a7 : FVec Ideal S256x1024 .f32) (b5 b6 b7 : FVec Ideal S1024x512 .bf16) (p : Fin 256) (d : Fin 512) :
    Gen.k0_pay13 (F := Ideal) inv deg v162 a5 b5 a6 b6 a7 b7 (ix2 p d)
      = Ideal.div (v162 (ix2 p d) + mm inv a5 b5 p d + mm inv a6 b6 p d + mm inv a7 b7 p d) (deg (ix2 p (0 : Fin 1))) := by
  show Ideal.div (v162 (ix2 p d) + matmul (F := Ideal) dot_S256x1024_S1024x512_S256x512_1_0_0_1_n_n none (fusedOf inv a5) (shapeCast S1024x512 b5 shapeCasts_S1024x512_S1024x512) (constant (F := Ideal) S256x512 .f32 0x00000000#32) (ix2 p d)
      + matmul (F := Ideal) dot_S256x1024_S1024x512_S256x512_1_0_0_1_n_n none (fusedOf inv a6) (shapeCast S1024x512 b6 shapeCasts_S1024x512_S1024x512) (constant (F := Ideal) S256x512 .f32 0x00000000#32) (ix2 p d)
      + matmul (F := Ideal) dot_S256x1024_S1024x512_S256x512_1_0_0_1_n_n none (fusedOf inv a7) (shapeCast S1024x512 b7 shapeCasts_S1024x512_S1024x512) (constant (F := Ideal) S256x512 .f32 0x00000000#32) (ix2 p d))
    (broadcastTo S256x512 deg broadcasts_S256x1_S256x512 (ix2 p d)) = _
  rw [matmul_fused_zero_apply, matmul_fused_zero_apply, matmul_fused_zero_apply, column512_apply]

/-! ## The eight chunks of a panel -/

/-- A chunk of a panel whose every entry is the panel's entry in the chunk's column: its three row quantities over the
    panel's columns. -/
theorem cnt_of_chunk (x0 : Mat 256 8192) (k : Fin 8) (a : FVec Ideal S256x1024 .f32)
    (ha : ∀ (p : Fin 256) (q : Fin 1024), a (ix2 p q) = x0 (ix2 p (col k q))) (p : Fin 256) :
    cnt a p = ∑ q : Fin 1024, pos (x0 (ix2 p (col k q))) :=
  Finset.sum_congr rfl fun q _ => by rw [ha]

theorem rsum_of_chunk (x0 : Mat 256 8192) (k : Fin 8) (a : FVec Ideal S256x1024 .f32)
    (ha : ∀ (p : Fin 256) (q : Fin 1024), a (ix2 p q) = x0 (ix2 p (col k q))) (p : Fin 256) :
    rsum a p = ∑ q : Fin 1024, x0 (ix2 p (col k q)) :=
  Finset.sum_congr rfl fun q _ => ha p q

theorem mm_of_chunk (x0 : Mat 256 8192) (x1 : Mat 8192 512) (k : Fin 8) (a : FVec Ideal S256x1024 .f32)
    (b : FVec Ideal S1024x512 .bf16) (ha : ∀ (p : Fin 256) (q : Fin 1024), a (ix2 p q) = x0 (ix2 p (col k q)))
    (hb : ∀ (q : Fin 1024) (d : Fin 512), b (ix2 q d) = x1 (ix2 (col k q) d)) (inv : FVec Ideal S256x1 .f32)
    (p : Fin 256) (d : Fin 512) (hinv : inv (ix2 p (0 : Fin 1)) = Cert.Hyperedge.inv x0 p) :
    mm inv a b p d = ∑ q : Fin 1024, augK x0 p (col k q) * x1 (ix2 (col k q) d) :=
  Finset.sum_congr rfl fun q _ => by rw [ha, hb, hinv]; rfl

/-- THE PANEL'S VALUE over abstract chunks: if `a k` is the panel's chunk `k` and `b k` the features' rows of chunk `k`,
    the body's composed value at (p, d) is the row function of the panel, in its reciprocal form. -/
theorem panel_value (x0 : Mat 256 8192) (x1 : Mat 8192 512)
    (a0 a1 a2 a3 a4 a5 a6 a7 : FVec Ideal S256x1024 .f32) (b0 b1 b2 b3 b4 b5 b6 b7 : FVec Ideal S1024x512 .bf16)
    (ha0 : ∀ (p : Fin 256) (q : Fin 1024), a0 (ix2 p q) = x0 (ix2 p (col 0 q)))
    (ha1 : ∀ (p : Fin 256) (q : Fin 1024), a1 (ix2 p q) = x0 (ix2 p (col 1 q)))
    (ha2 : ∀ (p : Fin 256) (q : Fin 1024), a2 (ix2 p q) = x0 (ix2 p (col 2 q)))
    (ha3 : ∀ (p : Fin 256) (q : Fin 1024), a3 (ix2 p q) = x0 (ix2 p (col 3 q)))
    (ha4 : ∀ (p : Fin 256) (q : Fin 1024), a4 (ix2 p q) = x0 (ix2 p (col 4 q)))
    (ha5 : ∀ (p : Fin 256) (q : Fin 1024), a5 (ix2 p q) = x0 (ix2 p (col 5 q)))
    (ha6 : ∀ (p : Fin 256) (q : Fin 1024), a6 (ix2 p q) = x0 (ix2 p (col 6 q)))
    (ha7 : ∀ (p : Fin 256) (q : Fin 1024), a7 (ix2 p q) = x0 (ix2 p (col 7 q)))
    (hb0 : ∀ (q : Fin 1024) (d : Fin 512), b0 (ix2 q d) = x1 (ix2 (col 0 q) d))
    (hb1 : ∀ (q : Fin 1024) (d : Fin 512), b1 (ix2 q d) = x1 (ix2 (col 1 q) d))
    (hb2 : ∀ (q : Fin 1024) (d : Fin 512), b2 (ix2 q d) = x1 (ix2 (col 2 q) d))
    (hb3 : ∀ (q : Fin 1024) (d : Fin 512), b3 (ix2 q d) = x1 (ix2 (col 3 q) d))
    (hb4 : ∀ (q : Fin 1024) (d : Fin 512), b4 (ix2 q d) = x1 (ix2 (col 4 q) d))
    (hb5 : ∀ (q : Fin 1024) (d : Fin 512), b5 (ix2 q d) = x1 (ix2 (col 5 q) d))
    (hb6 : ∀ (q : Fin 1024) (d : Fin 512), b6 (ix2 q d) = x1 (ix2 (col 6 q) d))
    (hb7 : ∀ (q : Fin 1024) (d : Fin 512), b7 (ix2 q d) = x1 (ix2 (col 7 q) d))
    (p : Fin 256) (d : Fin 512) :
    Gen.k0_pay13 (F := Ideal) (Gen.k0_pay7 (F := Ideal) (Gen.k0_pay4 (F := Ideal) (Gen.k0_pay1 (F := Ideal) a0 a1 a2) (Gen.k0_pay3 (F := Ideal) a3) a4 a5 a6) a7) (Gen.k0_pay8 (F := Ideal) (Gen.k0_pay4 (F := Ideal) (Gen.k0_pay1 (F := Ideal) a0 a1 a2) (Gen.k0_pay3 (F := Ideal) a3) a4 a5 a6) (Gen.k0_pay5 (F := Ideal) (Gen.k0_pay2 (F := Ideal) a0 a1 a2) a3 a4 a5 a6) a7) (Gen.k0_pay12 (F := Ideal) (Gen.k0_pay7 (F := Ideal) (Gen.k0_pay4 (F := Ideal) (Gen.k0_pay1 (F := Ideal) a0 a1 a2) (Gen.k0_pay3 (F := Ideal) a3) a4 a5 a6) a7) (Gen.k0_pay9 (F := Ideal) (Gen.k0_pay4 (F := Ideal) (Gen.k0_pay1 (F := Ideal) a0 a1 a2) (Gen.k0_pay3 (F := Ideal) a3) a4 a5 a6) a7 a0 b0) (Gen.k0_pay10 (F := Ideal) (Gen.k0_pay4 (F := Ideal) (Gen.k0_pay1 (F := Ideal) a0 a1 a2) (Gen.k0_pay3 (F := Ideal) a3) a4 a5 a6) a7 a1) (Gen.k0_pay11 (F := Ideal) b1) (constant S256x512 .f32 0x00000000#32) a2 b2 a3 b3 a4 b4) a5 b5 a6 b6 a7 b7 (ix2 p d) = outAtK x0 x1 p d := by
  -- the count of positives, accumulated over the eight chunks, is the count over the row
  have hC : Gen.k0_pay6 (F := Ideal) (Gen.k0_pay4 (F := Ideal) (Gen.k0_pay1 (F := Ideal) a0 a1 a2) (Gen.k0_pay3 (F := Ideal) a3) a4 a5 a6) a7 (ix2 p (0 : Fin 1)) = count x0 p := by
    rw [pay6_apply, pay4_apply, pay1_apply, cnt_of_chunk x0 0 a0 ha0, cnt_of_chunk x0 1 a1 ha1, cnt_of_chunk x0 2 a2 ha2, cnt_of_chunk x0 3 a3 ha3, cnt_of_chunk x0 4 a4 ha4, cnt_of_chunk x0 5 a5 ha5, cnt_of_chunk x0 6 a6 ha6, cnt_of_chunk x0 7 a7 ha7]
    exact sum_eight_chunks fun j => pos (x0 (ix2 p j))
  -- hence the reciprocal of the clamped norm
  have hI : (Gen.k0_pay7 (F := Ideal) (Gen.k0_pay4 (F := Ideal) (Gen.k0_pay1 (F := Ideal) a0 a1 a2) (Gen.k0_pay3 (F := Ideal) a3) a4 a5 a6) a7) (ix2 p (0 : Fin 1)) = Cert.Hyperedge.inv x0 p := by
    rw [pay7_apply, hC]
    rfl
  -- the row sum, accumulated over the eight chunks
  have hS : (Gen.k0_pay5 (F := Ideal) (Gen.k0_pay2 (F := Ideal) a0 a1 a2) a3 a4 a5 a6) (ix2 p (0 : Fin 1)) + rsum a7 p = ∑ j : Fin 8192, x0 (ix2 p j) := by
    rw [pay5_apply, pay2_apply, rsum_of_chunk x0 0 a0 ha0, rsum_of_chunk x0 1 a1 ha1, rsum_of_chunk x0 2 a2 ha2, rsum_of_chunk x0 3 a3 ha3, rsum_of_chunk x0 4 a4 ha4, rsum_of_chunk x0 5 a5 ha5, rsum_of_chunk x0 6 a6 ha6, rsum_of_chunk x0 7 a7 ha7]
    exact sum_eight_chunks fun j => x0 (ix2 p j)
  -- the degree
  have hD : (Gen.k0_pay8 (F := Ideal) (Gen.k0_pay4 (F := Ideal) (Gen.k0_pay1 (F := Ideal) a0 a1 a2) (Gen.k0_pay3 (F := Ideal) a3) a4 a5 a6) (Gen.k0_pay5 (F := Ideal) (Gen.k0_pay2 (F := Ideal) a0 a1 a2) a3 a4 a5 a6) a7) (ix2 p (0 : Fin 1)) = degreeK x0 p := by
    rw [pay8_apply, hS, hC, hI]
    rfl
  -- the eight products, accumulated in order, are the contraction over the row
  rw [pay13_apply, pay12_apply, pay9_apply, hD,
    mm_of_chunk x0 x1 0 a0 b0 ha0 hb0 (Gen.k0_pay7 (F := Ideal) (Gen.k0_pay4 (F := Ideal) (Gen.k0_pay1 (F := Ideal) a0 a1 a2) (Gen.k0_pay3 (F := Ideal) a3) a4 a5 a6) a7) p d hI,
    mm_of_chunk x0 x1 1 a1 b1 ha1 hb1 (Gen.k0_pay7 (F := Ideal) (Gen.k0_pay4 (F := Ideal) (Gen.k0_pay1 (F := Ideal) a0 a1 a2) (Gen.k0_pay3 (F := Ideal) a3) a4 a5 a6) a7) p d hI,
    mm_of_chunk x0 x1 2 a2 b2 ha2 hb2 (Gen.k0_pay7 (F := Ideal) (Gen.k0_pay4 (F := Ideal) (Gen.k0_pay1 (F := Ideal) a0 a1 a2) (Gen.k0_pay3 (F := Ideal) a3) a4 a5 a6) a7) p d hI,
    mm_of_chunk x0 x1 3 a3 b3 ha3 hb3 (Gen.k0_pay7 (F := Ideal) (Gen.k0_pay4 (F := Ideal) (Gen.k0_pay1 (F := Ideal) a0 a1 a2) (Gen.k0_pay3 (F := Ideal) a3) a4 a5 a6) a7) p d hI,
    mm_of_chunk x0 x1 4 a4 b4 ha4 hb4 (Gen.k0_pay7 (F := Ideal) (Gen.k0_pay4 (F := Ideal) (Gen.k0_pay1 (F := Ideal) a0 a1 a2) (Gen.k0_pay3 (F := Ideal) a3) a4 a5 a6) a7) p d hI,
    mm_of_chunk x0 x1 5 a5 b5 ha5 hb5 (Gen.k0_pay7 (F := Ideal) (Gen.k0_pay4 (F := Ideal) (Gen.k0_pay1 (F := Ideal) a0 a1 a2) (Gen.k0_pay3 (F := Ideal) a3) a4 a5 a6) a7) p d hI,
    mm_of_chunk x0 x1 6 a6 b6 ha6 hb6 (Gen.k0_pay7 (F := Ideal) (Gen.k0_pay4 (F := Ideal) (Gen.k0_pay1 (F := Ideal) a0 a1 a2) (Gen.k0_pay3 (F := Ideal) a3) a4 a5 a6) a7) p d hI,
    mm_of_chunk x0 x1 7 a7 b7 ha7 hb7 (Gen.k0_pay7 (F := Ideal) (Gen.k0_pay4 (F := Ideal) (Gen.k0_pay1 (F := Ideal) a0 a1 a2) (Gen.k0_pay3 (F := Ideal) a3) a4 a5 a6) a7) p d hI]
  unfold outAtK
  exact congrArg (fun s => Ideal.div s (degreeK x0 p)) (sum_eight_chunks fun j => augK x0 p j * x1 (ix2 j d))

/-! ## The body's loads are the panel's chunks -/

/-- The chunk loaded at column offset `1024 · k` holds, at (p, q), the panel's entry (p, 1024 · k + q). -/
theorem ld_cols (x0 : Vec Ideal S256x8192 .f32) (off : Nat)
    (inb : ∀ a, (![0, off] : Fin 2 → Nat) a + S256x1024.size a ≤ S256x8192.size a) (k : Fin 8) (hk : off = 1024 * k.val)
    (p : Fin 256) (q : Fin 1024) :
    View.ld x0 (Rect.unit (s := S256x8192) ![0, off] S256x1024.size inb) (ix2 p q) = x0 (ix2 p (col k q)) := by
  show x0 ((Rect.unit (s := S256x8192) ![0, off] S256x1024.size inb).emb (ix2 p q)) = _
  refine congrArg x0 (funext fun a => Fin.ext ?_)
  match a with
  | ⟨0, _⟩ => show 0 + 1 * p.val = p.val; omega
  | ⟨1, _⟩ => show off + 1 * q.val = 1024 * k.val + q.val; omega

/-- The block of features loaded at row offset `1024 · k` holds, at (q, d), the features' entry (1024 · k + q, d). -/
theorem ld_rows (x1 : Vec Ideal S8192x512 .bf16) (off : Nat)
    (inb : ∀ a, (![off, 0] : Fin 2 → Nat) a + S1024x512.size a ≤ S8192x512.size a) (k : Fin 8) (hk : off = 1024 * k.val)
    (q : Fin 1024) (d : Fin 512) :
    View.ld x1 (Rect.unit (s := S8192x512) ![off, 0] S1024x512.size inb) (ix2 q d) = x1 (ix2 (col k q) d) := by
  show x1 ((Rect.unit (s := S8192x512) ![off, 0] S1024x512.size inb).emb (ix2 q d)) = _
  refine congrArg x1 (funext fun a => Fin.ext ?_)
  match a with
  | ⟨0, _⟩ => show off + 1 * q.val = 1024 * k.val + q.val; omega
  | ⟨1, _⟩ => show 0 + 1 * d.val = d.val; omega

theorem origin2 : (![0, 0] : Fin 2 → Nat) = fun _ => 0 := funext fun a => by fin_cases a <;> rfl

/-- What the body leaves in the output block, at row `p` and column `d` of the block: the result row of the
    panel's row `p`. -/
theorem out0_2_apply (x0 : Vec Ideal S256x8192 .f32) (x1 : Vec Ideal S8192x512 .bf16) (p : Fin 256) (d : Fin 512) :
    Gen.out0_2 (F := Ideal) x0 x1 (ix2 p d) = outAt (R := 256) (N := 8192) (D := 512) x0 x1 p d := by
  unfold Gen.out0_2
  rw [View.canon_unit_zero origin2]
  refine (panel_value x0 x1
    (View.ld x0 Gen.r0_0) (View.ld x0 Gen.r0_1) (View.ld x0 Gen.r0_2) (View.ld x0 Gen.r0_3) (View.ld x0 Gen.r0_4) (View.ld x0 Gen.r0_5) (View.ld x0 Gen.r0_6) (View.ld x0 Gen.r0_7)
    (View.ld x1 Gen.r0_8) (View.ld x1 Gen.r0_9) (View.ld x1 Gen.r0_10) (View.ld x1 Gen.r0_11) (View.ld x1 Gen.r0_12) (View.ld x1 Gen.r0_13) (View.ld x1 Gen.r0_14) (View.ld x1 Gen.r0_15)
    (ld_cols x0 0 _ 0 (by decide)) (ld_cols x0 1024 _ 1 (by decide)) (ld_cols x0 2048 _ 2 (by decide)) (ld_cols x0 3072 _ 3 (by decide)) (ld_cols x0 4096 _ 4 (by decide)) (ld_cols x0 5120 _ 5 (by decide)) (ld_cols x0 6144 _ 6 (by decide)) (ld_cols x0 7168 _ 7 (by decide))
    (ld_rows x1 0 _ 0 (by decide)) (ld_rows x1 1024 _ 1 (by decide)) (ld_rows x1 2048 _ 2 (by decide)) (ld_rows x1 3072 _ 3 (by decide)) (ld_rows x1 4096 _ 4 (by decide)) (ld_rows x1 5120 _ 5 (by decide)) (ld_rows x1 6144 _ 6 (by decide)) (ld_rows x1 7168 _ 7 (by decide))
    p d).trans ?_
  exact outAtK_eq x0 x1 p d

end Cert.KernelIdeal.Panel

end
-- ==== Proof.WholeArray.lean ====
/-
  From blocks to the array: after the run the result array is the row-wise hyperedge function of the two arguments.

  The grid has 32 points. Point t reads the panel of rows 256·t … 256·t + 255 of the incidence matrix A (all 8192
  columns), reads the whole feature matrix X, and writes rows 256·t … 256·t + 255 of the result (all 512 columns).

  * The features reach the region through one change of number format made before it; on the extended reals a change
    of format is the identity, so the array the region reads is X index by index.
  * The body's result at row p, column d of its block is the specification's row function of the panel's row p; a
    row of the result depends on that row of A only, and the panel's row p is row 256·t + p of A, so what point t
    writes back is block t of out A X.
  * Row r of the result lies in the block of point r / 256, so the 32 blocks cover the array, and the array ends
    holding out A X.
-/
import proofs.«155519_j59227599012106_2_alg».proof.Proof.Gen.KernelIdeal.Value
import proofs.«155519_j59227599012106_2_alg».proof.Proof.PanelPayload
import proofs.«155519_j59227599012106_2_alg».proof.Proof.HyperedgeSpec
import Idealize.ShloMosaic.Lib.Pipeline.Value
import Idealize.ShloMosaic.Lib.ValueIdx
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The incidence matrix as launched on core c. -/
abbrev incidence (c : Dev nD) : Cert.Hyperedge.Mat 8192 8192 := m ((c : Thread nD τ).loc main_arg1)

/-- The node features as launched on core c. -/
abbrev features (c : Dev nD) : Cert.Hyperedge.Mat 8192 512 := m ((c : Thread nD τ).loc main_arg0)

/-- The array the result ends holding: the row-wise function of the two arguments. -/
abbrev whole (c : Dev nD) : S8192x512.Idx → EReal :=
  Cert.Hyperedge.out (R := 8192) (N := 8192) (D := 512) (incidence m c) (features m c)

/-! ## The arrays the region reads -/

/-- The features the region reads went through one change of number format before it, which on the extended
    reals changes nothing: index by index they are the features as launched. -/
theorem features_entry (c : Dev nD) (i : S8192x512.Idx) :
    (V m c main_v0 : S8192x512.Idx → EReal) i = features m c i := by
  have e : (V m c main_v0 : (⟨S8192x512, .bf16⟩ : BufTy).Contents (Elt Ideal))
      = (truncf (F := Ideal) (s := S8192x512) (φ := .f32) .bf16 (m ((c : Thread nD τ).loc main_arg0)) bitsLt_bf16_f32 :
          (⟨S8192x512, .bf16⟩ : BufTy).Contents (Elt Ideal)) := by
    dsimp only [Gen.V, Gen.hostOps0]; after_results
  exact (congrFun e i).trans (truncf_apply _ _ i)

/-! ## The index maps over the grid -/

/-- The block indices at point t, decided over the 32 points: the incidence panel and the result block are at
    (t, 0), the features' one block at (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The blocks at a point -/

/-- Row p of the incidence panel at point t is row 256·t + p of the incidence matrix. -/
theorem panel_row (c : Dev nD) (t : Fin cfg0.N) (p : Fin 256) (j : Fin 8192) (r : Fin 8192)
    (hr : r.val = 256 * t.val + p.val) :
    (iblk m c 0 t : S256x8192.Idx → EReal) (ix2 p j) = incidence m c (ix2 r j) := by
  obtain ⟨e0, e1, -⟩ := index_facts t
  unfold iblk
  rw [View.read_apply]
  show V m c main_arg1 (((cfg0.win 0).blk t).view.emb (ix2 p j)) = _
  rw [V_main_arg1]
  refine congrArg (m ((c : Thread nD τ).loc main_arg1)) (funext fun a => Fin.ext ?_)
  match a with
  | ⟨0, _⟩ => show win0_0.index t (0 : Fin 2) * 256 + 1 * p.val = r.val; omega
  | ⟨1, _⟩ => show win0_0.index t (1 : Fin 2) * 8192 + 1 * j.val = j.val; omega

/-- The features' one block is the whole feature matrix. -/
theorem features_block (c : Dev nD) (t : Fin cfg0.N) (y : S8192x512.Idx) :
    (iblk m c 1 t : S8192x512.Idx → EReal) y = features m c y := by
  obtain ⟨-, -, e2, e3, -⟩ := index_facts t
  unfold iblk
  rw [View.read_apply]
  show V m c main_v0 (((cfg0.win 1).blk t).view.emb y) = _
  refine (congrArg (V m c main_v0) (funext fun a => Fin.ext ?_)).trans (features_entry m c y)
  match a with
  | ⟨0, _⟩ => show win0_1.index t (0 : Fin 2) * 8192 + 1 * (y 0).val = (y 0).val; omega
  | ⟨1, _⟩ => show win0_1.index t (1 : Fin 2) * 512 + 1 * (y 1).val = (y 1).val; omega

/-- The body's result at row p, column d of a block, for any panel whose row p is row r of A and any feature block
    that is X: the specification's result at row r, column d. -/
theorem block_entry (x0 : Vec Ideal S256x8192 .f32) (x1 : Vec Ideal S8192x512 .bf16)
    (A : Cert.Hyperedge.Mat 8192 8192) (X : Cert.Hyperedge.Mat 8192 512) (p : Fin 256) (d : Fin 512) (r : Fin 8192)
    (h0 : ∀ j : Fin 8192, x0 (ix2 p j) = A (ix2 r j)) (h1 : ∀ y : S8192x512.Idx, x1 y = X y) :
    out0_2 x0 x1 (ix2 p d) = Cert.Hyperedge.outAt A X r d := by
  have e : (x1 : Cert.Hyperedge.Mat 8192 512) = X := funext h1
  rw [Cert.KernelIdeal.Panel.out0_2_apply, e]
  exact Cert.Hyperedge.outAt_congr_row x0 A X p r h0 d

/-! ## What a point writes back -/

/-- What point t writes back is block t of the whole-array function. -/
theorem flushed_eq (c : Dev nD) (t : Fin cfg0.N) :
    (dats m 0 c).flushed 2 t = ((cfg0.win 2).blk t).view.read (Elt Ideal) (whole m c) := by
  rw [Cert.KernelIdeal.Value.flushed2]
  funext y
  obtain ⟨p, d, rfl⟩ : ∃ (p : Fin 256) (d : Fin 512), y = ix2 p d := ⟨y 0, y 1, eq_ix2 y⟩
  obtain ⟨-, -, -, -, e4, e5⟩ := index_facts t
  have ht : t.val < 32 := Nat.lt_of_lt_of_eq t.isLt N_0
  have hp : p.val < 256 := p.isLt
  show out0_2 (iblk m c 0 t) (iblk m c 1 t) (ix2 p d) = whole m c (((cfg0.win 2).blk t).view.emb (ix2 p d))
  have hemb : ((cfg0.win 2).blk t).view.emb (ix2 p d) = ix2 (⟨256 * t.val + p.val, by omega⟩ : Fin 8192) d :=
    funext fun a => Fin.ext (by
      match a with
      | ⟨0, _⟩ => show win0_2.index t (0 : Fin 2) * 256 + 1 * p.val = 256 * t.val + p.val; omega
      | ⟨1, _⟩ => show win0_2.index t (1 : Fin 2) * 512 + 1 * d.val = d.val; omega)
  rw [hemb]
  exact block_entry (iblk m c 0 t) (iblk m c 1 t) (incidence m c) (features m c) p d _
    (fun j => panel_row m c t p j _ rfl) (features_block m c t)

/-! ## The blocks cover the array -/

/-- An index is in point t's block iff each coordinate is in the block's range on its axis. -/
theorem mem_block (t : Fin cfg0.N) (i : S8192x512.Idx) :
    i ∈ ((cfg0.win 2).blk t).view.set ↔ ∀ a : Fin 2, win0_2.index t a * S256x512.size a ≤ (i a).val
      ∧ (i a).val < win0_2.index t a * S256x512.size a + S256x512.size a := by
  show i ∈ ((View.whole main_v1).slice (win0_2.rect t)).set ↔ _
  rw [View.set_slice_whole, Rect.mem_set_unit]
  exact Iff.rfl

/-- Row r of the result is in the block of point r / 256. -/
theorem cover (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  obtain ⟨t, ht⟩ : ∃ t : Fin cfg0.N, t.val = (i 0).val / 256 :=
    ⟨⟨(i 0).val / 256, Nat.lt_of_lt_of_eq (by omega : (i 0).val / 256 < 32) N_0.symm⟩, rfl⟩
  obtain ⟨-, -, -, -, e4, e5⟩ := index_facts t
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 512 ≤ (i 1).val ∧ (i 1).val < win0_2.index t (1 : Fin 2) * 512 + 512
    omega

/-! ## The array after the run -/

/-- The result array after the last point is the whole-array function. -/
theorem final (c : Dev nD) : (dats m 0 c).arrAt 2 cfg0.N = whole m c :=
  (dats m 0 c).arrAt_eq_of_cover 2 (whole m c) (fun t _ => flushed_eq m c t) cover

/-- The run: the result array ends holding the row-wise hyperedge function of the two arguments, which are
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1)
          = Cert.Hyperedge.out (R := 8192) (N := 8192) (D := 512) (m ((c : Thread nD τ).loc main_arg1)) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks (F := Ideal) m ρ)

end Cert.KernelIdeal.Whole

end
-- ==== Proof.ReferenceRead.lean ====
/-
  The reference program on the extended reals, read one stage at a time at literal coordinates.

  The program's stages, for the incidence matrix A (8192 × 8192) and the node features X (8192 × 512):

    stage 0–2    the membership indicator   pos (A (i, j))       (compare with zero, read the truth value as 0 or 1),
    stage 3–4    the count of members       count i = ∑ j, pos (A (i, j))   (the indicator squared is the indicator),
    stage 5–8    the clamped row norm       norm i = max (√(count i)) ε,
    stage 9–11   the augmented entry        aug (i, j) = A (i, j) + pos (A (i, j)) / norm i,
    stage 12     the aggregated feature     feature (i, d) = ∑ j, aug (i, j) · X (j, d),
    stage 13–15  the degree                 degree i = ∑ j, aug (i, j),
    stage 16     the quotient               feature (i, d) / degree i.

  Each lemma below says that a stage, read at an index built from literal coordinates, is the corresponding quantity
  of the row-wise specification. Nothing here needs the inputs to be finite: every equation holds at every extended
  real, because each stage's definition and the specification's are the same expression of the same operands.
-/
import proofs.«155519_j59227599012106_2_alg».proof.Proof.Gen.ReferenceIdeal.Read
import proofs.«155519_j59227599012106_2_alg».proof.Proof.HyperedgeSpec

noncomputable section

open scoped BigOperators

namespace Cert.ReferenceIdeal.RefValue

open Idealize.ShloMosaic Idealize.ShloMosaic.ValueIdx Cert.ReferenceIdeal Cert.ReferenceIdeal.Read
open Cert.Hyperedge (pos)

/-- The indicator of positivity is idempotent under multiplication: its values are 0 and 1. -/
theorem pos_mul_pos (a : EReal) : pos a * pos a = pos a := by
  unfold pos
  by_cases h : 0 < a
  · rw [if_pos h, one_mul]
  · rw [if_neg h, zero_mul]

/-- Stages 0–2: comparing an entry with zero and reading the truth value as a number gives the indicator. -/
theorem mask_eq (x1 : (⟨S8192x8192, .f32⟩ : BufTy).Contents (Elt Ideal)) (j : S8192x8192.Idx) :
    val_main_v2 (F := Ideal) x1 j = pos (x1 j) := by
  rw [val_main_v2_apply, val_main_v1_apply, val_main_v0_apply, val_main_cst_apply, Ideal.cmpf_def, Ideal.ofBits_def,
    Ideal.ofBits_zero_f32]
  show (((Ideal.cmp .ogt (x1 j) 0).toNat : ℝ) : EReal) = pos (x1 j)
  unfold pos Ideal.cmp
  by_cases h : 0 < x1 j
  · simp [h]
  · simp [h]

/-- Stage 3: the indicator squared is the indicator. -/
theorem mask_sq_eq (x1 : (⟨S8192x8192, .f32⟩ : BufTy).Contents (Elt Ideal)) (j : S8192x8192.Idx) :
    val_main_v3 (F := Ideal) x1 j = pos (x1 j) := by
  rw [val_main_v3_apply, Ideal.mulf_def, mask_eq, pos_mul_pos]

/-- Stage 4: the row sum of the squared indicator is the count of the row's positive entries. -/
theorem count_eq (x1 : (⟨S8192x8192, .f32⟩ : BufTy).Contents (Elt Ideal)) (i : Fin 8192) :
    val_main_v4 (F := Ideal) x1 (ix1 i) = Cert.Hyperedge.count (R := 8192) (N := 8192) x1 i := by
  rw [val_main_v4_apply, val_main_cst_0_apply, Ideal.ofBits_def, Ideal.ofBits_zero_f32, zero_add]
  unfold Cert.Hyperedge.count
  refine Finset.sum_congr rfl fun k _ => ?_
  have hk : idx_main_v4 (ix1 i) k = ix2 i k :=
    funext fun a => Fin.ext (by match a with | ⟨0, _⟩ => rfl | ⟨1, _⟩ => rfl)
  rw [hk, mask_sq_eq]

/-- Stages 5–8: the square root of the count, clamped below by ε, is the row norm. -/
theorem norm_eq (x1 : (⟨S8192x8192, .f32⟩ : BufTy).Contents (Elt Ideal)) (i : Fin 8192) :
    val_main_v8 (F := Ideal) x1 (ix2 i (0 : Fin 1)) = Cert.Hyperedge.norm (R := 8192) (N := 8192) x1 i := by
  rw [val_main_v8_apply, val_main_v6_apply, val_main_v5_apply, val_main_v7_apply, val_main_cst_1_apply,
    Ideal.maximumf_def, Ideal.hostUnary_sqrt_def, Ideal.ofBits_def]
  have hi : idx_main_v5 (ix2 i (0 : Fin 1)) = ix1 i :=
    funext fun a => Fin.ext (by match a with | ⟨0, _⟩ => rfl)
  rw [hi, count_eq]
  rfl

/-- Stage 9: the norm, repeated along the row. -/
theorem norm_bcast_eq (x1 : (⟨S8192x8192, .f32⟩ : BufTy).Contents (Elt Ideal)) (i j : Fin 8192) :
    val_main_v9 (F := Ideal) x1 (ix2 i j) = Cert.Hyperedge.norm (R := 8192) (N := 8192) x1 i := by
  rw [val_main_v9_apply]
  have hi : idx_main_v9 (ix2 i j) = ix2 i (0 : Fin 1) :=
    funext fun a => Fin.ext (by match a with | ⟨0, _⟩ => rfl | ⟨1, _⟩ => rfl)
  rw [hi, norm_eq]

/-- Stages 10–11: the entry plus its indicator over the row norm is the augmented entry. -/
theorem aug_eq (x1 : (⟨S8192x8192, .f32⟩ : BufTy).Contents (Elt Ideal)) (i j : Fin 8192) :
    val_main_v11 (F := Ideal) x1 (ix2 i j) = Cert.Hyperedge.aug (R := 8192) (N := 8192) x1 i j := by
  rw [val_main_v11_apply, val_main_v10_apply, Ideal.addf_def, Ideal.hostDivf_def, mask_eq, norm_bcast_eq]
  rfl

/-- Stage 12: the product with the features, read at (i, d), is the aggregated feature. -/
theorem feature_eq (x0 : (⟨S8192x512, .f32⟩ : BufTy).Contents (Elt Ideal))
    (x1 : (⟨S8192x8192, .f32⟩ : BufTy).Contents (Elt Ideal)) (i : Fin 8192) (d : Fin 512) :
    val_main_v12 (F := Ideal) x0 x1 (ix2 i d) = Cert.Hyperedge.feature (R := 8192) (N := 8192) (D := 512) x1 x0 i d := by
  rw [val_main_v12_apply]
  unfold Cert.Hyperedge.feature
  refine Finset.sum_congr rfl fun k _ => ?_
  have hl : lidx_main_v12 (ix2 i d) k = ix2 i k :=
    funext fun a => Fin.ext (by match a with | ⟨0, _⟩ => rfl | ⟨1, _⟩ => rfl)
  have hr : ridx_main_v12 (ix2 i d) k = ix2 k d :=
    funext fun a => Fin.ext (by match a with | ⟨0, _⟩ => rfl | ⟨1, _⟩ => rfl)
  rw [hl, hr, aug_eq]

/-- Stage 13: the row sum of the augmented entries is the degree. -/
theorem degree_eq (x1 : (⟨S8192x8192, .f32⟩ : BufTy).Contents (Elt Ideal)) (i : Fin 8192) :
    val_main_v13 (F := Ideal) x1 (ix1 i) = Cert.Hyperedge.degree (R := 8192) (N := 8192) x1 i := by
  rw [val_main_v13_apply, val_main_cst_2_apply, Ideal.ofBits_def, Ideal.ofBits_zero_f32, zero_add]
  unfold Cert.Hyperedge.degree
  refine Finset.sum_congr rfl fun k _ => ?_
  have hk : idx_main_v13 (ix1 i) k = ix2 i k :=
    funext fun a => Fin.ext (by match a with | ⟨0, _⟩ => rfl | ⟨1, _⟩ => rfl)
  rw [hk, aug_eq]

/-- Stages 14–15: the degree, repeated along the feature axis. -/
theorem degree_bcast_eq (x1 : (⟨S8192x8192, .f32⟩ : BufTy).Contents (Elt Ideal)) (i : Fin 8192) (d : Fin 512) :
    val_main_v15 (F := Ideal) x1 (ix2 i d) = Cert.Hyperedge.degree (R := 8192) (N := 8192) x1 i := by
  rw [val_main_v15_apply, val_main_v14_apply]
  have hi : idx_main_v14 (idx_main_v15 (ix2 i d)) = ix1 i :=
    funext fun a => Fin.ext (by match a with | ⟨0, _⟩ => rfl)
  rw [hi, degree_eq]

/-- Stage 16, the program's result: the aggregated features over the degree, row by row. -/
theorem result_eq (x0 : (⟨S8192x512, .f32⟩ : BufTy).Contents (Elt Ideal)) (x1 : (⟨S8192x8192, .f32⟩ : BufTy).Contents (Elt Ideal)) :
    Cert.ReferenceIdeal.Read.val_main_v16 (F := Ideal) x0 x1 = Cert.Hyperedge.out (R := 8192) (N := 8192) (D := 512) x1 x0 := by
  funext o
  obtain ⟨i, d, rfl⟩ : ∃ (i : Fin 8192) (d : Fin 512), o = ix2 i d := ⟨o 0, o 1, eq_ix2 o⟩
  rw [val_main_v16_apply, Ideal.hostDivf_def, feature_eq, degree_bcast_eq, Cert.Hyperedge.out_ix2]
  rfl

end Cert.ReferenceIdeal.RefValue

end
-- ==== Proof.lean ====
/-
  Hyperedge message passing: a fused row-panel kernel against its plain reference, on the extended reals.

  Both programs compute, for an incidence matrix A (8192 × 8192) and node features X (8192 × 512), row by row

      out (i, ·) = (∑ j, aug (i, j) · X (j, ·)) / (∑ j, aug (i, j)),   aug (i, j) = A (i, j) + [A (i, j) > 0] / norm i,
      norm i = max (√(number of positive entries of row i)) ε.

  The reference forms the indicator, its normalization, the augmented matrix, one product and one row sum over whole
  arrays. The kernel takes 256 rows at a time, walks them in eight chunks of 1024 columns, takes the reciprocal of
  the norm once, adds the indicator times that reciprocal to each chunk before one product per chunk, and gets the
  degree as (row sum) + count · reciprocal. On the extended reals a change of float format is the identity, a sum
  taken in chunks is the sum, dividing by the positive norm is multiplying by its inverse, and that inverse — a
  nonnegative real — moves across the finite sum of indicators; so each block of the kernel's result is the same
  rows of the same function, and the blocks tile the result. No finiteness of the inputs is used.

  The three programs' frames are the generated ones (the reference's is its generated run with the result dropped);
  the idealization rewrote nothing, so the kernel is its own idealization read at the extended reals.
-/
import proofs.«155519_j59227599012106_2_alg».proof.Defs
import proofs.«155519_j59227599012106_2_alg».proof.Proof.Gen.Kernel
import proofs.«155519_j59227599012106_2_alg».proof.Proof.Gen.Kernel.Skeleton
import proofs.«155519_j59227599012106_2_alg».proof.Proof.Gen.Kernel.Launch
import proofs.«155519_j59227599012106_2_alg».proof.Proof.Gen.Kernel.Points
import proofs.«155519_j59227599012106_2_alg».proof.Proof.Gen.Kernel.Frame
import proofs.«155519_j59227599012106_2_alg».proof.Proof.Gen.KernelIdeal
import proofs.«155519_j59227599012106_2_alg».proof.Proof.Gen.KernelIdeal.Skeleton
import proofs.«155519_j59227599012106_2_alg».proof.Proof.Gen.KernelIdeal.Launch
import proofs.«155519_j59227599012106_2_alg».proof.Proof.Gen.KernelIdeal.Points
import proofs.«155519_j59227599012106_2_alg».proof.Proof.Gen.KernelIdeal.Frame
import proofs.«155519_j59227599012106_2_alg».proof.Proof.Gen.ReferenceIdeal
import proofs.«155519_j59227599012106_2_alg».proof.Proof.Gen.Pre_finite_inputs
import proofs.«155519_j59227599012106_2_alg».proof.Proof.Gen.KernelIdeal.Value
import proofs.«155519_j59227599012106_2_alg».proof.Proof.Gen.ReferenceIdeal.Run
import proofs.«155519_j59227599012106_2_alg».proof.Proof.Gen.ReferenceIdeal.Read
import proofs.«155519_j59227599012106_2_alg».proof.Proof.WholeArray
import proofs.«155519_j59227599012106_2_alg».proof.Proof.ReferenceRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array ends at the row-wise function of its argument arrays, and the
    reference's at the same function of arguments that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
